-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S1600000x64 : Shape := ⟨2, ![1600000, 64]⟩
abbrev S256x64 : Shape := ⟨2, ![256, 64]⟩
abbrev S64 : Shape := ⟨1, ![64]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S1600000x64 : S_.BroadcastsInDim S1600000x64 (![] : Fin 0 → Fin S1600000x64.rank)
  reducesTo_S1600000x64_S_d0_1 : S1600000x64.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S64 .f32) (main_arg6 : FVec F S128x2 .f32) (main_arg7 : FVec F S2 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S1600000x128 .f32) (main_arg3 : FVec F S1600000x64 .f32) (main_arg4 : FVec F S256x64 .f32) (main_arg5 : FVec F S64 .f32) (main_arg6 : FVec F S128x2 .f32) (main_arg7 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S1600000x64 .f32 := Host.absf main_arg3
  let main_cst_2 : FVec F S_ .f32 := constant S_ .f32 0x7F800000#32
  let main_v10 : FVec F S1600000x64 .f32 := broadcastInDim S1600000x64 ![] bcast_S_S1600000x64 main_cst_2
  let main_v11 : IVec S1600000x64 1 := cmpf .olt main_v9 main_v10
  let main_c_3 : IVec S_ 1 := constantI S_ 1 1#1
  let main_v12 : IVec S_ 1 := (fun x v => Host.reduce IntOp.andi x v reducesTo_S1600000x64_S_d0_1 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S1600000x64 : Shape := ⟨2, ![1600000, 64]⟩
abbrev S256x64 : Shape := ⟨2, ![256, 64]⟩
abbrev S64 : Shape := ⟨1, ![64]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x64 : Shape := ⟨2, ![128, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1x64 : Shape := ⟨2, ![1, 64]⟩
abbrev S64x2 : Shape := ⟨2, ![64, 2]⟩
abbrev S100000x2 : Shape := ⟨2, ![100000, 2]⟩
abbrev S5000x2 : Shape := ⟨2, ![5000, 2]⟩
abbrev S1x2 : Shape := ⟨2, ![1, 2]⟩

abbrev nBuf : Space → Nat
  | .hbm => 53
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S1600000x64, .f32⟩
  | .hbm, ⟨4, _⟩ => ⟨S256x64, .f32⟩
  | .hbm, ⟨5, _⟩ => ⟨S64, .f32⟩
  | .hbm, ⟨6, _⟩ => ⟨S128x2, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S128x64, .f32⟩
  | .hbm, ⟨20, _⟩ => ⟨S128x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x64, .f32⟩
  | .hbm, ⟨36, _⟩ => ⟨S64x2, .f32⟩
  | .hbm, ⟨37, _⟩ => ⟨S64x2, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x64, .f32⟩
  | .local _ .vmem, ⟨7, _⟩ => ⟨S128x64, .f32⟩
  | .local _ .vmem, ⟨8, _⟩ => ⟨S64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x2, .f32⟩
  | .local _ .vmem, ⟨18, _⟩ => ⟨S64x2, .f32⟩
  | .local _ .vmem, ⟨19, _⟩ => ⟨S2, .f32⟩
  | .local _ .vmem, ⟨20, _⟩ => ⟨S5000x2, .f32⟩
  | .local _ .vmem, ⟨21, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  slices_S256x64_S128x64_0_0 : S256x64.Slices ![0, 0] S128x64
  slices_S256x64_S128x64_128_0 : S256x64.Slices ![128, 0] S128x64
  bcast_S_S100000x128 : S_.BroadcastsInDim S100000x128 (![] : Fin 0 → Fin S100000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S128x2_S64x2_0_0 : S128x2.Slices ![0, 0] S64x2
  slices_S128x2_S64x2_64_0 : S128x2.Slices ![64, 0] S64x2
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x2.size a ≤ S64x2.size a
  hwx1_3 : ∀ i : grid1.Coords, EltTy.bits .f32 = 32 ∨ (Rect.block (s := S64x2) S64x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x2.size a ≤ S64x2.size a
  hwx1_4 : ∀ i : grid1.Coords, EltTy.bits .f32 = 32 ∨ (Rect.block (s := S64x2) S64x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2.size a ≤ S2.size a
  hwx1_5 : ∀ i : grid1.Coords, EltTy.bits .f32 = 32 ∨ (Rect.block (s := S2) S2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x2.size a ≤ S100000x2.size a
  hwx1_6 : ∀ i : grid1.Coords, EltTy.bits .f32 = 32 ∨ (Rect.block (s := S100000x2) S5000x2.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S64x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S64x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S1600000x64 : Shape := ⟨2, ![1600000, 64]⟩
abbrev S256x64 : Shape := ⟨2, ![256, 64]⟩
abbrev S64 : Shape := ⟨1, ![64]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S100000x256 : Shape := ⟨2, ![100000, 256]⟩
abbrev S100000x64 : Shape := ⟨2, ![100000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S1600000x64, .f32⟩
  | .hbm, ⟨4, _⟩ => ⟨S256x64, .f32⟩
  | .hbm, ⟨5, _⟩ => ⟨S64, .f32⟩
  | .hbm, ⟨6, _⟩ => ⟨S128x2, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x256, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x128, .f32⟩
  | .hbm, ⟨77, _⟩ => ⟨S100000x2, .f32⟩
  | .hbm, ⟨78, _⟩ => ⟨S1x2, .f32⟩
  | .hbm, ⟨79, _⟩ => ⟨S100000x2, .f32⟩
  | .hbm, ⟨80, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x128_S128x2_S100000x2_1_0_0_1_n_n_wf : DotDims.WF S100000x128 S128x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.RunOut.lean ====
/-
  The whole program's run, with its result array named.

  The program is four stretches in a row: host operations, the first layer's kernel over its grid, host operations,
  the second layer's kernel over its grid. Every weakly fair execution runs them in that order and terminates; the
  contents of every buffer at each boundary are a fold from the launch memory (host operations applied in order; a
  kernel's arrays replaced by what its write-backs leave). Read at the end, the result buffer holds the last
  boundary's contents at that buffer, and the eight argument arrays hold what they were launched with.
-/
import proofs.«170523_j1915555414503_2_alg».proof.Proof.Gen.KernelIdeal.Frame

set_option maxRecDepth 16384

noncomputable section

namespace Cert.KernelIdeal.RunOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents
    (the second kernel's write-backs folded over what the second host stretch left), the arguments as launched. -/
theorem run_out : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunOut

end
-- ==== Proof.HostSide.lean ====
/-
  What the host operations leave in each kernel's arrays, as functions of the launch memory.

  Before the first kernel the host computes, from the edge list, the source vector and the target vector; the edge
  counts (ones scatter-added at the targets, viewed as a column); the first layer's edge sums (the features gathered
  at the sources — a negative source wrapped by the node count —, scaled by the edge attributes, scatter-added at the
  targets); and the two halves of the first weight matrix. Between the kernels it does the same with the first kernel's
  result in place of the features and the second set of attributes and weights. Each chain is named here once and
  never opened: the reference computes the same chains, and only the values going into them matter.
-/
import proofs.«170523_j1915555414503_2_alg».proof.Proof.Gen.KernelIdeal.Frame
import Idealize.ShloMosaic.Lib.StableHlo.Run
import Idealize.ShloMosaic.Lib.ValueIdx

set_option maxRecDepth 16384

noncomputable section

namespace Cert.KernelIdeal.HostSide

open Idealize.ShloMosaic Idealize.ShloMosaic.TcCoe Idealize.ShloMosaic.ValueIdx
open Idealize.SL Idealize.SL.Sem
open Cert.KernelIdeal Cert.KernelIdeal.Gen

/-! ## The chains -/

/-- Row 0 of the edge list: the source nodes. -/
def srcK (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000
/-- Row 1 of the edge list: the target nodes. -/
def dstK (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000
/-- The targets as a column of scatter indices. -/
def dstCol (dst : (⟨S1600000, .i32⟩ : BufTy).Contents (Elt Ideal)) : (⟨S1600000x1, .i32⟩ : BufTy).Contents (Elt Ideal) :=
  broadcastInDim S1600000x1 ![0] bcast_S1600000_S1600000x1_0 dst
/-- The sources, a negative one wrapped by the node count, as a column of gather indices. -/
def srcCol (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)
/-- The number of edges ending at each node. -/
def cntV (dst : (⟨S1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32)) (dstCol dst)
    (broadcastInDim S1600000 ![] bcast_S_S1600000 (constant (F := Ideal) S_ .f32 0x3F800000#32))
/-- The edge counts as a column. -/
def cntColV (dst : (⟨S1600000, .i32⟩ : BufTy).Contents (Elt Ideal)) : (⟨S100000x1, .f32⟩ : BufTy).Contents (Elt Ideal) :=
  shapeCast _ (cntV dst) shapeCasts_S100000_S100000x1
/-- The first layer's edge sums: the features at each edge's source, scaled by the edge's attributes, added up at
    the edge's target. -/
def seg0V (x : (⟨S100000x128, .f32⟩ : BufTy).Contents (Elt Ideal)) (src dst : (⟨S1600000, .i32⟩ : BufTy).Contents (Elt Ideal))
    (ea : (⟨S1600000x128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32)) (dstCol dst)
    (mulf (Host.gather gather_S100000x128_S1600000x1_S1600000x128_1_0_n_n_0_1_1128 x (srcCol src)) ea)
/-- The second layer's edge sums, of the first layer's result. -/
def seg1V (h : (⟨S100000x64, .f32⟩ : BufTy).Contents (Elt Ideal)) (src dst : (⟨S1600000, .i32⟩ : BufTy).Contents (Elt Ideal))
    (aa : (⟨S1600000x64, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32)) (dstCol dst)
    (mulf (Host.gather gather_S100000x64_S1600000x1_S1600000x64_1_0_n_n_0_1_164 h (srcCol src)) aa)
/-- The upper and the lower half of the first weight matrix, and of the second. -/
def wx0K (w : (⟨S256x64, .f32⟩ : BufTy).Contents (Elt Ideal)) : (⟨S128x64, .f32⟩ : BufTy).Contents (Elt Ideal) :=
  extractStridedSlice S128x64 ![0, 0] w slices_S256x64_S128x64_0_0
def wa0K (w : (⟨S256x64, .f32⟩ : BufTy).Contents (Elt Ideal)) : (⟨S128x64, .f32⟩ : BufTy).Contents (Elt Ideal) :=
  extractStridedSlice S128x64 ![128, 0] w slices_S256x64_S128x64_128_0
def wx1K (w : (⟨S128x2, .f32⟩ : BufTy).Contents (Elt Ideal)) : (⟨S64x2, .f32⟩ : BufTy).Contents (Elt Ideal) :=
  extractStridedSlice S64x2 ![0, 0] w slices_S128x2_S64x2_0_0
def wa1K (w : (⟨S128x2, .f32⟩ : BufTy).Contents (Elt Ideal)) : (⟨S64x2, .f32⟩ : BufTy).Contents (Elt Ideal) :=
  extractStridedSlice S64x2 ![64, 0] w slices_S128x2_S64x2_64_0

variable (m : (ℓ : Loc nD τ sig) → Buf (Elt Ideal) ℓ) (ρ : Dev nD → PrngReg)

/-! ## At the first kernel's entry -/

theorem V1_arg0 (c : Dev nD) : V1 m ρ c main_arg0 = m ((c : Thread nD τ).loc main_arg0) := by
  show StableHlo.after hostOps0 (W0 m ρ c) (Proc.devRef .tc main_arg0) = _; after_results <;> rfl
theorem V1_arg5 (c : Dev nD) : V1 m ρ c main_arg5 = m ((c : Thread nD τ).loc main_arg5) := by
  show StableHlo.after hostOps0 (W0 m ρ c) (Proc.devRef .tc main_arg5) = _; after_results <;> rfl
theorem V1_arg3 (c : Dev nD) : V1 m ρ c main_arg3 = m ((c : Thread nD τ).loc main_arg3) := by
  show StableHlo.after hostOps0 (W0 m ρ c) (Proc.devRef .tc main_arg3) = _; after_results <;> rfl
theorem V1_arg6 (c : Dev nD) : V1 m ρ c main_arg6 = m ((c : Thread nD τ).loc main_arg6) := by
  show StableHlo.after hostOps0 (W0 m ρ c) (Proc.devRef .tc main_arg6) = _; after_results <;> rfl
theorem V1_arg7 (c : Dev nD) : V1 m ρ c main_arg7 = m ((c : Thread nD τ).loc main_arg7) := by
  show StableHlo.after hostOps0 (W0 m ρ c) (Proc.devRef .tc main_arg7) = _; after_results <;> rfl
theorem V1_v1 (c : Dev nD) : V1 m ρ c main_v1 = srcK (m ((c : Thread nD τ).loc main_arg1)) := by
  show StableHlo.after hostOps0 (W0 m ρ c) (Proc.devRef .tc main_v1) = _; after_results <;> rfl
theorem V1_v3 (c : Dev nD) : V1 m ρ c main_v3 = dstK (m ((c : Thread nD τ).loc main_arg1)) := by
  show StableHlo.after hostOps0 (W0 m ρ c) (Proc.devRef .tc main_v3) = _; after_results <;> rfl
theorem V1_v9 (c : Dev nD) : V1 m ρ c main_v9 = wx0K (m ((c : Thread nD τ).loc main_arg4)) := by
  show StableHlo.after hostOps0 (W0 m ρ c) (Proc.devRef .tc main_v9) = _; after_results <;> rfl
theorem V1_v10 (c : Dev nD) : V1 m ρ c main_v10 = wa0K (m ((c : Thread nD τ).loc main_arg4)) := by
  show StableHlo.after hostOps0 (W0 m ρ c) (Proc.devRef .tc main_v10) = _; after_results <;> rfl
theorem V1_v8 (c : Dev nD) : V1 m ρ c main_v8 = cntColV (dstK (m ((c : Thread nD τ).loc main_arg1))) := by
  show StableHlo.after hostOps0 (W0 m ρ c) (Proc.devRef .tc main_v8) = _; after_results <;> rfl
set_option maxHeartbeats 2000000 in
theorem V1_v21 (c : Dev nD) : V1 m ρ c main_v21
    = seg0V (m ((c : Thread nD τ).loc main_arg0)) (srcK (m ((c : Thread nD τ).loc main_arg1)))
        (dstK (m ((c : Thread nD τ).loc main_arg1))) (m ((c : Thread nD τ).loc main_arg2)) := by
  show StableHlo.after hostOps0 (W0 m ρ c) (Proc.devRef .tc main_v21) = _; after_results <;> rfl

end Cert.KernelIdeal.HostSide

end
-- ==== Proof.Spec.lean ====
/-
  One layer of a mean-aggregating graph convolution, at one entry of its result, over the extended reals.

  A node r carries a feature row x(r, ·) of C channels; S(r, ·) is the sum, over the edges that end at r, of the
  source node's row scaled channel by channel by the edge's attributes, and c(r) the number of those edges. The
  layer joins the node's own row with the mean S(r, ·) / max(c(r), 1) and applies one linear map with a weight
  matrix of 2C rows and a bias: at output channel q,

      ( Σ_k x(r, k) · W(k, q)  +  Σ_k (S(r, k) / max(c(r), 1)) · W(C + k, q) )  +  b(q).

  `entry` is that number as a function of the row's values; `low` and `high` name the two halves of the weight
  matrix's row range. Multiplying the joined row [x(r, ·), mean(r, ·)] of 2C entries with the whole matrix gives the
  same number, because a sum over 2C indices is the sum over the first C plus the sum over the last C
  (`sum_halves`); no finiteness is needed, only that addition of extended reals is associative and commutative.
-/
import Idealize.ShloMosaic.PureOps.Ideal

noncomputable section

open scoped BigOperators

namespace Cert.GraphLayer

open Idealize.ShloMosaic

/-- The number 1 as both programs spell it (the f32 pattern of 1.0; it is never evaluated). -/
abbrev one : EReal := Ideal.ofBits .f32 0x3F800000#32

/-- The number 0 as both programs spell it (the f32 pattern of +0.0). -/
abbrev zero : EReal := Ideal.ofBits .f32 0x00000000#32

/-- Entry (r, q) of one layer before any activation, from row r of the features (`xr`), row r of the edge sums
    (`sr`), the edge count of r (`cr`), column q of the upper and of the lower half of the weights (`wx`, `wa`)
    and the bias at q. -/
def entry {C : ℕ} (xr sr : Fin C → EReal) (cr : EReal) (wx wa : Fin C → EReal) (bq : EReal) : EReal :=
  ((∑ k : Fin C, xr k * wx k) + ∑ k : Fin C, Ideal.div (sr k) (max cr one) * wa k) + bq

/-- Row k of the upper half of a matrix with D ≥ C rows. -/
def low {C D : ℕ} (h : C ≤ D) (k : Fin C) : Fin D := ⟨k.val, Nat.lt_of_lt_of_le k.isLt h⟩

/-- Row C + k of a matrix with D ≥ 2C rows: row k of its lower half. -/
def high {C D : ℕ} (h : C + C ≤ D) (k : Fin C) : Fin D := ⟨C + k.val, by have := k.isLt; omega⟩

@[simp] theorem low_val {C D : ℕ} (h : C ≤ D) (k : Fin C) : (low h k).val = k.val := rfl
@[simp] theorem high_val {C D : ℕ} (h : C + C ≤ D) (k : Fin C) : (high h k).val = C + k.val := rfl

/-- A sum over 2C indices is the sum over the first C plus the sum over the last C. -/
theorem sum_halves {C : ℕ} (f : Fin (C + C) → EReal) :
    ∑ k : Fin (C + C), f k = (∑ k : Fin C, f (low (Nat.le_add_right C C) k)) + ∑ k : Fin C, f (high (Nat.le_refl _) k) := by
  rw [Fin.sum_univ_add]
  rfl

end Cert.GraphLayer

end
-- ==== Proof.Blocks.lean ====
/-
  Where each window's blocks sit in its array, for the two kernels.

  Both kernels run over a grid of 20 points. At point t the row-blocked windows — the node features, the edge sums,
  the edge counts and the result — hold rows 5000·t … 5000·t + 4999 of their arrays with all their columns, so entry
  (p, k) of such a block is entry (5000·t + p, k) of the array; the two weight matrices and the bias are held whole at
  every point. The result's 20 blocks tile its 100000 rows: row r belongs to the point r / 5000.
-/
import proofs.«170523_j1915555414503_2_alg».proof.Proof.Gen.KernelIdeal.Launch
import proofs.«170523_j1915555414503_2_alg».proof.Proof.Gen.KernelIdeal.Points
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen

/-- The all-zero offsets of a rank-2 rectangle, however they are spelt. -/
theorem hz2 : (![0, 0] : Fin 2 → Nat) = fun _ => 0 := funext fun a => by fin_cases a <;> rfl
/-- The zero offset of a rank-1 rectangle. -/
theorem hz1 : (![0] : Fin 1 → Nat) = fun _ => 0 := funext fun a => by fin_cases a; rfl

/-! ## Layer 1's kernel: 20 grid points, point t owning rows 5000·t … 5000·t + 4999 -/

/-- The printed index maps over the grid: the row-blocked windows (features, edge sums, edge counts, result) sit at
    block row t, the weights and the bias at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row p of point t's block is row 5000·t + p of the array. -/
def row0 (t : Fin cfg0.N) (p : Fin 5000) : Fin 100000 :=
  ⟨t.val * 5000 + p.val, by have ht : t.val < 20 := lt_of_lt_of_eq t.isLt N_0; have := p.isLt; omega⟩

theorem emb0_0 (t : Fin cfg0.N) (p : Fin 5000) (k : Fin 128) :
    ((cfg0.win 0).blk t).view.emb (ix2 p k) = ix2 (row0 t p) k := by
  obtain ⟨e0, e1, -⟩ := idx0 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb0_1 (t : Fin cfg0.N) (p : Fin 5000) (k : Fin 128) :
    ((cfg0.win 1).blk t).view.emb (ix2 p k) = ix2 (row0 t p) k := by
  obtain ⟨-, -, e0, e1, -⟩ := idx0 t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

theorem emb0_2 (t : Fin cfg0.N) (p : Fin 5000) (u : Fin 1) :
    ((cfg0.win 2).blk t).view.emb (ix2 p u) = ix2 (row0 t p) u := by
  obtain ⟨-, -, -, -, e0, e1, -⟩ := idx0 t
  funext a; apply Fin.ext
  match a with
  | ⟨0, _⟩ => show win0_2.index t (0 : Fin 2) * 5000 + 1 * p.val = t.val * 5000 + p.val; omega
  | ⟨1, _⟩ => show win0_2.index t (1 : Fin 2) * 1 + 1 * u.val = u.val; omega

theorem emb0_3 (t : Fin cfg0.N) (k : Fin 128) (q : Fin 64) :
    ((cfg0.win 3).blk t).view.emb (ix2 k q) = ix2 k q := by
  obtain ⟨-, -, -, -, -, -, e0, e1, -⟩ := idx0 t
  funext a; apply Fin.ext
  match a with
  | ⟨0, _⟩ => show win0_3.index t (0 : Fin 2) * 128 + 1 * k.val = k.val; omega
  | ⟨1, _⟩ => show win0_3.index t (1 : Fin 2) * 64 + 1 * q.val = q.val; omega

theorem emb0_4 (t : Fin cfg0.N) (k : Fin 128) (q : Fin 64) :
    ((cfg0.win 4).blk t).view.emb (ix2 k q) = ix2 k q := by
  obtain ⟨-, -, -, -, -, -, -, -, e0, e1, -⟩ := idx0 t
  funext a; apply Fin.ext
  match a with
  | ⟨0, _⟩ => show win0_4.index t (0 : Fin 2) * 128 + 1 * k.val = k.val; omega
  | ⟨1, _⟩ => show win0_4.index t (1 : Fin 2) * 64 + 1 * q.val = q.val; omega

theorem emb0_5 (t : Fin cfg0.N) (q : Fin 64) :
    ((cfg0.win 5).blk t).view.emb (ix1 q) = ix1 q := by
  obtain ⟨-, -, -, -, -, -, -, -, -, -, e0, -⟩ := idx0 t
  funext a; apply Fin.ext
  match a with
  | ⟨0, _⟩ => show win0_5.index t (0 : Fin 1) * 64 + 1 * q.val = q.val; omega

theorem emb0_6 (t : Fin cfg0.N) (p : Fin 5000) (q : Fin 64) :
    ((cfg0.win 6).blk t).view.emb (ix2 p q) = ix2 (row0 t p) q := by
  obtain ⟨-, -, -, -, -, -, -, -, -, -, -, e0, e1⟩ := idx0 t
  funext a; apply Fin.ext
  match a with
  | ⟨0, _⟩ => show win0_6.index t (0 : Fin 2) * 5000 + 1 * p.val = t.val * 5000 + p.val; omega
  | ⟨1, _⟩ => show win0_6.index t (1 : Fin 2) * 64 + 1 * q.val = q.val; omega

/-- An index of the result array is in point t's block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v22).slice (win0_6.rect t)).set ↔ _
  rw [View.set_slice_whole, Rect.mem_set_unit]
  exact Iff.rfl

/-- The blocks tile the result array: row r is in the block of point r / 5000. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  refine ⟨⟨(i 0).val / 5000, lt_of_lt_of_eq (by omega : (i 0).val / 5000 < 20) N_0.symm⟩, flush0_6 _, ?_⟩
  rw [mem_blk0]
  obtain ⟨-, -, -, -, -, -, -, -, -, -, -, e0, e1⟩ := idx0 (⟨(i 0).val / 5000, lt_of_lt_of_eq (by omega : (i 0).val / 5000 < 20) N_0.symm⟩ : Fin cfg0.N)
  have e0' : win0_6.index (⟨(i 0).val / 5000, lt_of_lt_of_eq (by omega : (i 0).val / 5000 < 20) N_0.symm⟩ : Fin cfg0.N) (0 : Fin 2) = (i 0).val / 5000 := e0
  intro a
  match a with
  | ⟨0, _⟩ => show win0_6.index _ (0 : Fin 2) * 5000 ≤ (i 0).val ∧ (i 0).val < win0_6.index _ (0 : Fin 2) * 5000 + 5000; omega
  | ⟨1, _⟩ => show win0_6.index _ (1 : Fin 2) * 64 ≤ (i 1).val ∧ (i 1).val < win0_6.index _ (1 : Fin 2) * 64 + 64; omega

/-! ## Layer 2's kernel: 20 grid points, point t owning rows 5000·t … 5000·t + 4999 -/

/-- The printed index maps over the grid: the row-blocked windows (features, edge sums, edge counts, result) sit at
    block row t, the weights and the bias at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row p of point t's block is row 5000·t + p of the array. -/
def row1 (t : Fin cfg1.N) (p : Fin 5000) : Fin 100000 :=
  ⟨t.val * 5000 + p.val, by have ht : t.val < 20 := lt_of_lt_of_eq t.isLt N_1; have := p.isLt; omega⟩

theorem emb1_0 (t : Fin cfg1.N) (p : Fin 5000) (k : Fin 64) :
    ((cfg1.win 0).blk t).view.emb (ix2 p k) = ix2 (row1 t p) k := by
  obtain ⟨e0, e1, -⟩ := idx1 t
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

theorem emb1_1 (t : Fin cfg1.N) (p : Fin 5000) (k : Fin 64) :
    ((cfg1.win 1).blk t).view.emb (ix2 p k) = ix2 (row1 t p) k := by
  obtain ⟨-, -, e0, e1, -⟩ := idx1 t
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

theorem emb1_2 (t : Fin cfg1.N) (p : Fin 5000) (u : Fin 1) :
    ((cfg1.win 2).blk t).view.emb (ix2 p u) = ix2 (row1 t p) u := by
  obtain ⟨-, -, -, -, e0, e1, -⟩ := idx1 t
  funext a; apply Fin.ext
  match a with
  | ⟨0, _⟩ => show win1_2.index t (0 : Fin 2) * 5000 + 1 * p.val = t.val * 5000 + p.val; omega
  | ⟨1, _⟩ => show win1_2.index t (1 : Fin 2) * 1 + 1 * u.val = u.val; omega

theorem emb1_3 (t : Fin cfg1.N) (k : Fin 64) (q : Fin 2) :
    ((cfg1.win 3).blk t).view.emb (ix2 k q) = ix2 k q := by
  obtain ⟨-, -, -, -, -, -, e0, e1, -⟩ := idx1 t
  funext a; apply Fin.ext
  match a with
  | ⟨0, _⟩ => show win1_3.index t (0 : Fin 2) * 64 + 1 * k.val = k.val; omega
  | ⟨1, _⟩ => show win1_3.index t (1 : Fin 2) * 2 + 1 * q.val = q.val; omega

theorem emb1_4 (t : Fin cfg1.N) (k : Fin 64) (q : Fin 2) :
    ((cfg1.win 4).blk t).view.emb (ix2 k q) = ix2 k q := by
  obtain ⟨-, -, -, -, -, -, -, -, e0, e1, -⟩ := idx1 t
  funext a; apply Fin.ext
  match a with
  | ⟨0, _⟩ => show win1_4.index t (0 : Fin 2) * 64 + 1 * k.val = k.val; omega
  | ⟨1, _⟩ => show win1_4.index t (1 : Fin 2) * 2 + 1 * q.val = q.val; omega

theorem emb1_5 (t : Fin cfg1.N) (q : Fin 2) :
    ((cfg1.win 5).blk t).view.emb (ix1 q) = ix1 q := by
  obtain ⟨-, -, -, -, -, -, -, -, -, -, e0, -⟩ := idx1 t
  funext a; apply Fin.ext
  match a with
  | ⟨0, _⟩ => show win1_5.index t (0 : Fin 1) * 2 + 1 * q.val = q.val; omega

theorem emb1_6 (t : Fin cfg1.N) (p : Fin 5000) (q : Fin 2) :
    ((cfg1.win 6).blk t).view.emb (ix2 p q) = ix2 (row1 t p) q := by
  obtain ⟨-, -, -, -, -, -, -, -, -, -, -, e0, e1⟩ := idx1 t
  funext a; apply Fin.ext
  match a with
  | ⟨0, _⟩ => show win1_6.index t (0 : Fin 2) * 5000 + 1 * p.val = t.val * 5000 + p.val; omega
  | ⟨1, _⟩ => show win1_6.index t (1 : Fin 2) * 2 + 1 * q.val = q.val; omega

/-- An index of the result array is in point t's block iff each coordinate is in the block's range on its axis. -/
theorem mem_blk1 (t : Fin cfg1.N) (i : S100000x2.Idx) :
    i ∈ ((cfg1.win 6).blk t).view.set ↔ ∀ a : Fin 2, win1_6.index t a * S5000x2.size a ≤ (i a).val ∧ (i a).val < win1_6.index t a * S5000x2.size a + S5000x2.size a := by
  show i ∈ ((View.whole main_v36).slice (win1_6.rect t)).set ↔ _
  rw [View.set_slice_whole, Rect.mem_set_unit]
  exact Iff.rfl

/-- The blocks tile the result array: row r is in the block of point r / 5000. -/
theorem cover1 (i : S100000x2.Idx) :
    ∃ t : Fin cfg1.N, (cfg1.win 6).flush t = true ∧ i ∈ ((cfg1.win 6).blk t).view.set := by
  have hi0 : (i 0).val < 100000 := (i 0).isLt
  have hi1 : (i 1).val < 2 := (i 1).isLt
  refine ⟨⟨(i 0).val / 5000, lt_of_lt_of_eq (by omega : (i 0).val / 5000 < 20) N_1.symm⟩, flush1_6 _, ?_⟩
  rw [mem_blk1]
  obtain ⟨-, -, -, -, -, -, -, -, -, -, -, e0, e1⟩ := idx1 (⟨(i 0).val / 5000, lt_of_lt_of_eq (by omega : (i 0).val / 5000 < 20) N_1.symm⟩ : Fin cfg1.N)
  have e0' : win1_6.index (⟨(i 0).val / 5000, lt_of_lt_of_eq (by omega : (i 0).val / 5000 < 20) N_1.symm⟩ : Fin cfg1.N) (0 : Fin 2) = (i 0).val / 5000 := e0
  intro a
  match a with
  | ⟨0, _⟩ => show win1_6.index _ (0 : Fin 2) * 5000 ≤ (i 0).val ∧ (i 0).val < win1_6.index _ (0 : Fin 2) * 5000 + 5000; omega
  | ⟨1, _⟩ => show win1_6.index _ (1 : Fin 2) * 2 ≤ (i 1).val ∧ (i 1).val < win1_6.index _ (1 : Fin 2) * 2 + 2; omega

end Cert.KernelIdeal.Blocks

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.PayloadEntry.lean ====
/-
  The two layer bodies of the kernel, read at one entry of their result, over the extended reals.

  Each body divides the edge sums S(r, ·) by max(c(r), 1) (the count stored as a column and repeated along the row),
  multiplies the node's own row x(r, ·) with the upper half of the weights and the mean row with the lower half (two
  matrix products into zero accumulators; the change to the narrow format between them is the identity on extended
  reals), adds the two products and then the bias, stored as a vector, viewed as one row and repeated over all rows.
  At entry (p, q) that is the number `entry` of the specification applied to row p of the operands and column q of the
  two weight halves; the first body then takes the maximum with 0.
-/
import proofs.«170523_j1915555414503_2_alg».proof.Proof.Gen.KernelIdeal.Skeleton
import proofs.«170523_j1915555414503_2_alg».proof.Proof.Spec
import proofs.«170523_j1915555414503_2_alg».proof.Proof.LibPlainMatmul
import proofs.«170523_j1915555414503_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.PayloadEntry

open Idealize.ShloMosaic Idealize.ShloMosaic.ValueIdx Cert.KernelIdeal Cert.GraphLayer

/-- The edge sums divided by the count column clamped below at 1 and repeated along each row: at (p, k) it is
    S(p, k) / max(c(p), 1). The two casts to the same shape are the identity. -/
theorem mean_apply {a b : ℕ} (s : FVec Ideal ⟨2, ![a, b]⟩ .f32) (c : FVec Ideal ⟨2, ![a, 1]⟩ .f32)
    (hs : (⟨2, ![a, b]⟩ : Shape).ShapeCasts ⟨2, ![a, b]⟩) (hc : (⟨2, ![a, 1]⟩ : Shape).ShapeCasts ⟨2, ![a, 1]⟩)
    (hb : (⟨2, ![a, 1]⟩ : Shape).Broadcasts ⟨2, ![a, b]⟩) (p : Fin a) (k : Fin b) :
    divf (shapeCast ⟨2, ![a, b]⟩ s hs)
        (broadcastTo ⟨2, ![a, b]⟩
          (maximumf (shapeCast ⟨2, ![a, 1]⟩ c hc) (broadcast ⟨2, ![a, 1]⟩ (Scalar.ofBits (F := Ideal) .f32 0x3F800000#32))) hb)
        (ix2 p k)
      = Ideal.div (s (ix2 p k)) (max (c (ix2 p (0 : Fin 1))) one) := by
  show Ideal.div (shapeCast ⟨2, ![a, b]⟩ s hs (ix2 p k)) (broadcastTo ⟨2, ![a, b]⟩ _ hb (ix2 p k)) = _
  rw [shapeCast_self s hs, Cert.Column.broadcastTo_a1_ab_apply _ hb p k, maximumf_apply, shapeCast_self c hc]
  rfl

/-- A vector viewed as one row and repeated over all rows reads, at (p, q), the vector at q. -/
theorem bias_apply {a b : ℕ} (v : FVec Ideal ⟨1, ![b]⟩ .f32) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-- One layer before any activation, at entry (p, q): the two products, their sum and the bias are `entry` at row p
    of the features, the edge sums and the count, and column q of the two weight halves. -/
theorem layer_apply {a C N : ℕ} (D : DotDims ⟨2, ![a, C]⟩ ⟨2, ![C, N]⟩ ⟨2, ![a, N]⟩) (hD : D = DotDims.plain a C N)
    (c : FVec Ideal ⟨2, ![a, 1]⟩ .f32) (s x : FVec Ideal ⟨2, ![a, C]⟩ .f32) (wx wa : FVec Ideal ⟨2, ![C, N]⟩ .f32)
    (bias : FVec Ideal ⟨1, ![N]⟩ .f32)
    (hc : (⟨2, ![a, 1]⟩ : Shape).ShapeCasts ⟨2, ![a, 1]⟩) (hs : (⟨2, ![a, C]⟩ : Shape).ShapeCasts ⟨2, ![a, C]⟩)
    (hw : (⟨2, ![C, N]⟩ : Shape).ShapeCasts ⟨2, ![C, N]⟩) (hb : (⟨2, ![a, 1]⟩ : Shape).Broadcasts ⟨2, ![a, C]⟩)
    (h1 : (⟨1, ![N]⟩ : Shape).ShapeCasts ⟨2, ![1, N]⟩) (h2 : (⟨2, ![1, N]⟩ : Shape).Broadcasts ⟨2, ![a, N]⟩)
    (hlt : FTy.bits .bf16 < FTy.bits .f32) (p : Fin a) (q : Fin N) :
    addf
        (addf
          (matmul D none (truncf .bf16 x hlt) (truncf .bf16 (shapeCast ⟨2, ![C, N]⟩ wx hw) hlt)
            (constant (F := Ideal) ⟨2, ![a, N]⟩ .f32 0x00000000#32))
          (matmul D none
            (truncf .bf16
              (divf (shapeCast ⟨2, ![a, C]⟩ s hs)
                (broadcastTo ⟨2, ![a, C]⟩
                  (maximumf (shapeCast ⟨2, ![a, 1]⟩ c hc)
                    (broadcast ⟨2, ![a, 1]⟩ (Scalar.ofBits (F := Ideal) .f32 0x3F800000#32))) hb)) hlt)
            (truncf .bf16 (shapeCast ⟨2, ![C, N]⟩ wa hw) hlt)
            (constant (F := Ideal) ⟨2, ![a, N]⟩ .f32 0x00000000#32)))
        (broadcastTo ⟨2, ![a, N]⟩ (shapeCast ⟨2, ![1, N]⟩ bias h1) h2) (ix2 p q)
      = entry (fun k : Fin C => x (ix2 p k)) (fun k : Fin C => s (ix2 p k)) (c (ix2 p (0 : Fin 1)))
          (fun k : Fin C => wx (ix2 k q)) (fun k : Fin C => wa (ix2 k q)) (bias (ix1 q)) := by
  refine (congrArg₂ (· + ·) (congrArg₂ (· + ·)
      (Cert.LibPlainMatmul.matmul_eq_plain_zero_apply D hD none _ _ p q)
      (Cert.LibPlainMatmul.matmul_eq_plain_zero_apply D hD none _ _ p q))
      (bias_apply bias h1 h2 p q)).trans ?_
  unfold entry
  refine congrArg₂ (· + ·) (congrArg₂ (· + ·) (Finset.sum_congr rfl fun k _ => ?_) (Finset.sum_congr rfl fun k _ => ?_)) rfl
  · exact congrArg (x (ix2 p k) * ·) (congrFun (shapeCast_self wx hw) (ix2 k q))
  · exact congrArg₂ (· * ·) (mean_apply s c hs hc hb p k) (congrFun (shapeCast_self wa hw) (ix2 k q))

/-- The first layer's body at entry (p, q): the layer's entry, then the maximum with 0. -/
theorem pay0_apply (v0 : Vec Ideal S5000x1 .f32) (v4 v8 : Vec Ideal S5000x128 .f32) (v11 v14 : Vec Ideal S128x64 .f32)
    (v20 : Vec Ideal S64 .f32) (p : Fin 5000) (q : Fin 64) :
    Cert.KernelIdeal.Gen.k0_pay1 (F := Ideal) v0 v4 v8 v11 v14 v20 (ix2 p q)
      = max (entry (fun k : Fin 128 => v8 (ix2 p k)) (fun k : Fin 128 => v4 (ix2 p k)) (v0 (ix2 p (0 : Fin 1)))
               (fun k : Fin 128 => v11 (ix2 k q)) (fun k : Fin 128 => v14 (ix2 k q)) (v20 (ix1 q))) zero := by
  unfold Cert.KernelIdeal.Gen.k0_pay1
  exact congrArg (max · zero)
    (layer_apply Cert.KernelIdeal.dot_S5000x128_S128x64_S5000x64_1_0_0_1_n_n rfl v0 v4 v8 v11 v14 v20
      Gen.shapeCasts_S5000x1_S5000x1 Gen.shapeCasts_S5000x128_S5000x128 Gen.shapeCasts_S128x64_S128x64
      Gen.broadcasts_S5000x1_S5000x128 Gen.shapeCasts_S64_S1x64 Gen.broadcasts_S1x64_S5000x64 Gen.bitsLt_bf16_f32 p q)

/-- The second layer's body at entry (p, q): the layer's entry (the features pass one more cast to the same shape). -/
theorem pay1_apply (v0 : Vec Ideal S5000x1 .f32) (v4 v8 : Vec Ideal S5000x64 .f32) (v12 v15 : Vec Ideal S64x2 .f32)
    (v21 : Vec Ideal S2 .f32) (p : Fin 5000) (q : Fin 2) :
    Cert.KernelIdeal.Gen.k1_pay1 (F := Ideal) v0 v4 v8 v12 v15 v21 (ix2 p q)
      = entry (fun k : Fin 64 => v8 (ix2 p k)) (fun k : Fin 64 => v4 (ix2 p k)) (v0 (ix2 p (0 : Fin 1)))
          (fun k : Fin 64 => v12 (ix2 k q)) (fun k : Fin 64 => v15 (ix2 k q)) (v21 (ix1 q)) := by
  unfold Cert.KernelIdeal.Gen.k1_pay1
  rw [shapeCast_self v8 Gen.shapeCasts_S5000x64_S5000x64]
  exact layer_apply Cert.KernelIdeal.dot_S5000x64_S64x2_S5000x2_1_0_0_1_n_n rfl v0 v4 v8 v12 v15 v21
    Gen.shapeCasts_S5000x1_S5000x1 Gen.shapeCasts_S5000x64_S5000x64 Gen.shapeCasts_S64x2_S64x2
    Gen.broadcasts_S5000x1_S5000x64 Gen.shapeCasts_S2_S1x2 Gen.broadcasts_S1x2_S5000x2 Gen.bitsLt_bf16_f32 p q

end Cert.PayloadEntry

end
-- ==== Proof.Regions.lean ====
/-
  Each kernel's result array as one function of the arrays it is entered with.

  A kernel visits its 20 grid points in turn. At point t it is handed rows 5000·t … 5000·t + 4999 of the features, of
  the edge sums and of the edge counts, and the two weight matrices and the bias whole; it writes back rows
  5000·t … 5000·t + 4999 of the result, each entry the layer's entry from that row's values. Since an entry of the
  result depends only on its own row of the row-blocked arrays, what every point writes back is its block of ONE
  function of the whole arrays, and since the 20 blocks tile the result's rows the result array ends as that function.
-/
import proofs.«170523_j1915555414503_2_alg».proof.Proof.Gen.KernelIdeal.Frame
import proofs.«170523_j1915555414503_2_alg».proof.Proof.Spec
import proofs.«170523_j1915555414503_2_alg».proof.Proof.Blocks
import proofs.«170523_j1915555414503_2_alg».proof.Proof.PayloadEntry
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Blocks Cert.GraphLayer

/-! ## Layer 1 -/

/-- Layer 1's result as one function of the six arrays its kernel reads: at (r, q) the layer's entry from row r of
    the features and of the edge sums, the edge count of r, column q of the two weight matrices and the bias at q, cut off below at 0. -/
def layer0 (A0 A1 : S100000x128.Idx → EReal) (A2 : S100000x1.Idx → EReal) (A3 A4 : S128x64.Idx → EReal)
    (A5 : S64.Idx → EReal) : S100000x64.Idx → EReal :=
  fun i => max (entry (fun k : Fin 128 => A0 (ix2 (i 0) k)) (fun k : Fin 128 => A1 (ix2 (i 0) k)) (A2 (ix2 (i 0) (0 : Fin 1))) (fun k : Fin 128 => A3 (ix2 k (i 1))) (fun k : Fin 128 => A4 (ix2 k (i 1))) (A5 (ix1 (i 1)))) zero

theorem layer0_apply (A0 A1 : S100000x128.Idx → EReal) (A2 : S100000x1.Idx → EReal) (A3 A4 : S128x64.Idx → EReal)
    (A5 : S64.Idx → EReal) (r : Fin 100000) (q : Fin 64) :
    layer0 A0 A1 A2 A3 A4 A5 (ix2 r q) = max (entry (fun k : Fin 128 => A0 (ix2 r k)) (fun k : Fin 128 => A1 (ix2 r k)) (A2 (ix2 r (0 : Fin 1))) (fun k : Fin 128 => A3 (ix2 k q)) (fun k : Fin 128 => A4 (ix2 k q)) (A5 (ix1 q))) zero := rfl

section
variable (V : (c : Dev nD) → (b : Ref sig .tc) → Buf (Elt Ideal) ((c : Thread nD τ).loc b))

/-- Entry (p, k) of a row-blocked window's block at point t is entry (5000·t + p, k) of its array; the weights and the
    bias are read where they are. -/
theorem read0_0 (c : Dev nD) (t : Fin cfg0.N) (p : Fin 5000) (k : Fin 128) :
    iblk0 V c 0 t (ix2 p k) = V c (Pipeline.arrRef spec0 0) (ix2 (row0 t p) k) := by
  unfold iblk0; rw [View.read_apply, emb0_0]; exact cast_eq _ _
theorem read0_1 (c : Dev nD) (t : Fin cfg0.N) (p : Fin 5000) (k : Fin 128) :
    iblk0 V c 1 t (ix2 p k) = V c (Pipeline.arrRef spec0 1) (ix2 (row0 t p) k) := by
  unfold iblk0; rw [View.read_apply, emb0_1]; exact cast_eq _ _
theorem read0_2 (c : Dev nD) (t : Fin cfg0.N) (p : Fin 5000) (u : Fin 1) :
    iblk0 V c 2 t (ix2 p u) = V c (Pipeline.arrRef spec0 2) (ix2 (row0 t p) u) := by
  unfold iblk0; rw [View.read_apply, emb0_2]; exact cast_eq _ _
theorem read0_3 (c : Dev nD) (t : Fin cfg0.N) (k : Fin 128) (q : Fin 64) :
    iblk0 V c 3 t (ix2 k q) = V c (Pipeline.arrRef spec0 3) (ix2 k q) := by
  unfold iblk0; rw [View.read_apply, emb0_3]; exact cast_eq _ _
theorem read0_4 (c : Dev nD) (t : Fin cfg0.N) (k : Fin 128) (q : Fin 64) :
    iblk0 V c 4 t (ix2 k q) = V c (Pipeline.arrRef spec0 4) (ix2 k q) := by
  unfold iblk0; rw [View.read_apply, emb0_4]; exact cast_eq _ _
theorem read0_5 (c : Dev nD) (t : Fin cfg0.N) (q : Fin 64) :
    iblk0 V c 5 t (ix1 q) = V c (Pipeline.arrRef spec0 5) (ix1 q) := by
  unfold iblk0; rw [View.read_apply, emb0_5]; exact cast_eq _ _

/-- What point t writes back is block t of the layer's function of the arrays as the kernel finds them. -/
theorem flushed0 (c : Dev nD) (t : Fin cfg0.N) :
    (dat0 V c).flushed 6 t = ((cfg0.win 6).blk t).view.read (Elt Ideal)
      (layer0 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x64) hz2, View.ld_unit_zero (S := S64) hz1]
  funext j
  obtain ⟨p, q, rfl⟩ : ∃ (p : Fin 5000) (q : Fin 64), j = ix2 p q := ⟨j 0, j 1, eq_ix2 j⟩
  refine (Cert.PayloadEntry.pay0_apply _ _ _ _ _ _ p q).trans ?_
  rw [View.read_apply, emb0_6, layer0_apply]
  simp only [read0_0, read0_1, read0_2, read0_3, read0_4, read0_5]
  exact (cast_eq _ _).symm

/-- After the kernel's 20 points the result array is the layer's function of the arrays the kernel was entered with. -/
theorem final0 (c : Dev nD) :
    (dat0 V c).arrAt 6 cfg0.N
      = layer0 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 V c).arrAt_eq_of_cover 6 _ (fun t _ => flushed0 V c t) cover0
end

/-! ## Layer 2 -/

/-- Layer 2's result as one function of the six arrays its kernel reads: at (r, q) the layer's entry from row r of
    the features and of the edge sums, the edge count of r, column q of the two weight matrices and the bias at q. -/
def layer1 (A0 A1 : S100000x64.Idx → EReal) (A2 : S100000x1.Idx → EReal) (A3 A4 : S64x2.Idx → EReal)
    (A5 : S2.Idx → EReal) : S100000x2.Idx → EReal :=
  fun i => entry (fun k : Fin 64 => A0 (ix2 (i 0) k)) (fun k : Fin 64 => A1 (ix2 (i 0) k)) (A2 (ix2 (i 0) (0 : Fin 1))) (fun k : Fin 64 => A3 (ix2 k (i 1))) (fun k : Fin 64 => A4 (ix2 k (i 1))) (A5 (ix1 (i 1)))

theorem layer1_apply (A0 A1 : S100000x64.Idx → EReal) (A2 : S100000x1.Idx → EReal) (A3 A4 : S64x2.Idx → EReal)
    (A5 : S2.Idx → EReal) (r : Fin 100000) (q : Fin 2) :
    layer1 A0 A1 A2 A3 A4 A5 (ix2 r q) = entry (fun k : Fin 64 => A0 (ix2 r k)) (fun k : Fin 64 => A1 (ix2 r k)) (A2 (ix2 r (0 : Fin 1))) (fun k : Fin 64 => A3 (ix2 k q)) (fun k : Fin 64 => A4 (ix2 k q)) (A5 (ix1 q)) := rfl

section
variable (V : (c : Dev nD) → (b : Ref sig .tc) → Buf (Elt Ideal) ((c : Thread nD τ).loc b))

/-- Entry (p, k) of a row-blocked window's block at point t is entry (5000·t + p, k) of its array; the weights and the
    bias are read where they are. -/
theorem read1_0 (c : Dev nD) (t : Fin cfg1.N) (p : Fin 5000) (k : Fin 64) :
    iblk1 V c 0 t (ix2 p k) = V c (Pipeline.arrRef spec1 0) (ix2 (row1 t p) k) := by
  unfold iblk1; rw [View.read_apply, emb1_0]; exact cast_eq _ _
theorem read1_1 (c : Dev nD) (t : Fin cfg1.N) (p : Fin 5000) (k : Fin 64) :
    iblk1 V c 1 t (ix2 p k) = V c (Pipeline.arrRef spec1 1) (ix2 (row1 t p) k) := by
  unfold iblk1; rw [View.read_apply, emb1_1]; exact cast_eq _ _
theorem read1_2 (c : Dev nD) (t : Fin cfg1.N) (p : Fin 5000) (u : Fin 1) :
    iblk1 V c 2 t (ix2 p u) = V c (Pipeline.arrRef spec1 2) (ix2 (row1 t p) u) := by
  unfold iblk1; rw [View.read_apply, emb1_2]; exact cast_eq _ _
theorem read1_3 (c : Dev nD) (t : Fin cfg1.N) (k : Fin 64) (q : Fin 2) :
    iblk1 V c 3 t (ix2 k q) = V c (Pipeline.arrRef spec1 3) (ix2 k q) := by
  unfold iblk1; rw [View.read_apply, emb1_3]; exact cast_eq _ _
theorem read1_4 (c : Dev nD) (t : Fin cfg1.N) (k : Fin 64) (q : Fin 2) :
    iblk1 V c 4 t (ix2 k q) = V c (Pipeline.arrRef spec1 4) (ix2 k q) := by
  unfold iblk1; rw [View.read_apply, emb1_4]; exact cast_eq _ _
theorem read1_5 (c : Dev nD) (t : Fin cfg1.N) (q : Fin 2) :
    iblk1 V c 5 t (ix1 q) = V c (Pipeline.arrRef spec1 5) (ix1 q) := by
  unfold iblk1; rw [View.read_apply, emb1_5]; exact cast_eq _ _

/-- What point t writes back is block t of the layer's function of the arrays as the kernel finds them. -/
theorem flushed1 (c : Dev nD) (t : Fin cfg1.N) :
    (dat1 V c).flushed 6 t = ((cfg1.win 6).blk t).view.read (Elt Ideal)
      (layer1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S5000x1) hz2,
    View.ld_unit_zero (S := S64x2) hz2, View.ld_unit_zero (S := S2) hz1]
  funext j
  obtain ⟨p, q, rfl⟩ : ∃ (p : Fin 5000) (q : Fin 2), j = ix2 p q := ⟨j 0, j 1, eq_ix2 j⟩
  refine (Cert.PayloadEntry.pay1_apply _ _ _ _ _ _ p q).trans ?_
  rw [View.read_apply, emb1_6, layer1_apply]
  simp only [read1_0, read1_1, read1_2, read1_3, read1_4, read1_5]
  exact (cast_eq _ _).symm

/-- After the kernel's 20 points the result array is the layer's function of the arrays the kernel was entered with. -/
theorem final1 (c : Dev nD) :
    (dat1 V c).arrAt 6 cfg1.N
      = layer1 (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 V c).arrAt_eq_of_cover 6 _ (fun t _ => flushed1 V c t) cover1
end

end Cert.KernelIdeal.Regions

end
-- ==== Proof.Between.lean ====
/-
  The second kernel's entry contents, and what the result buffer holds at the end.

  When the first kernel has run, its result array holds the first layer's function of the arrays it was entered with,
  and every other buffer is as it was. The host operations between the kernels read that array, the source and target
  vectors computed before the first kernel and two arguments, and write the second layer's edge sums and the two halves
  of the second weight matrix; the edge-count column is the one computed before the first kernel. When the second kernel
  has run, its result array — the program's result — holds the second layer's function of those.
-/
import proofs.«170523_j1915555414503_2_alg».proof.Proof.HostSide
import proofs.«170523_j1915555414503_2_alg».proof.Proof.Regions

set_option maxRecDepth 16384

noncomputable section

namespace Cert.KernelIdeal.Between

open Idealize.ShloMosaic Idealize.ShloMosaic.TcCoe Idealize.ShloMosaic.ValueIdx
open Idealize.SL Idealize.SL.Sem
open Cert.KernelIdeal Cert.KernelIdeal.Gen Cert.KernelIdeal.HostSide Cert.KernelIdeal.Regions

variable (m : (ℓ : Loc nD τ sig) → Buf (Elt Ideal) ℓ) (ρ : Dev nD → PrngReg)

/-! ## After the first kernel -/

/-- The first kernel's result array: the first layer of the arguments. -/
theorem W2_v22 (c : Dev nD) : W2 m ρ c (Proc.devRef .tc main_v22) = (layer0 (m ((c : Thread nD τ).loc main_arg0)) (seg0V (m ((c : Thread nD τ).loc main_arg0)) (srcK (m ((c : Thread nD τ).loc main_arg1))) (dstK (m ((c : Thread nD τ).loc main_arg1))) (m ((c : Thread nD τ).loc main_arg2)))
        (cntColV (dstK (m ((c : Thread nD τ).loc main_arg1)))) (wx0K (m ((c : Thread nD τ).loc main_arg4))) (wa0K (m ((c : Thread nD τ).loc main_arg4))) (m ((c : Thread nD τ).loc main_arg5))) := by
  refine (W2_arr m ρ c 6).trans ?_
  rw [final0 (V1 m ρ) c]
  show layer0 (V1 m ρ c main_arg0) (V1 m ρ c main_v21) (V1 m ρ c main_v8) (V1 m ρ c main_v9) (V1 m ρ c main_v10)
    (V1 m ρ c main_arg5) = _
  rw [V1_arg0, V1_v21, V1_v8, V1_v9, V1_v10, V1_arg5]

/-- The edge-count column is an input array of the first kernel: it leaves it as entered. -/
theorem W2_v8 (c : Dev nD) : W2 m ρ c (Proc.devRef .tc main_v8) = cntColV (dstK (m ((c : Thread nD τ).loc main_arg1))) :=
  ((W2_arr m ρ c 2).trans (((dat0 (V1 m ρ) c).arrAt_in 2 rfl _).trans (A_eq0 (V1 m ρ) c 2))).trans (V1_v8 m ρ c)

/-- Buffers the first kernel does not touch are as the first host stretch left them. -/
theorem W2_v1 (c : Dev nD) : W2 m ρ c (Proc.devRef .tc main_v1) = srcK (m ((c : Thread nD τ).loc main_arg1)) :=
  (W2_of_ne m ρ c main_v1 (by decide)).trans (V1_v1 m ρ c)
theorem W2_v3 (c : Dev nD) : W2 m ρ c (Proc.devRef .tc main_v3) = dstK (m ((c : Thread nD τ).loc main_arg1)) :=
  (W2_of_ne m ρ c main_v3 (by decide)).trans (V1_v3 m ρ c)
theorem W2_arg3 (c : Dev nD) : W2 m ρ c (Proc.devRef .tc main_arg3) = m ((c : Thread nD τ).loc main_arg3) :=
  (W2_of_ne m ρ c main_arg3 (by decide)).trans (V1_arg3 m ρ c)
theorem W2_arg6 (c : Dev nD) : W2 m ρ c (Proc.devRef .tc main_arg6) = m ((c : Thread nD τ).loc main_arg6) :=
  (W2_of_ne m ρ c main_arg6 (by decide)).trans (V1_arg6 m ρ c)
theorem W2_arg7 (c : Dev nD) : W2 m ρ c (Proc.devRef .tc main_arg7) = m ((c : Thread nD τ).loc main_arg7) :=
  (W2_of_ne m ρ c main_arg7 (by decide)).trans (V1_arg7 m ρ c)

/-! ## At the second kernel's entry -/

theorem V3_v22 (c : Dev nD) : V3 m ρ c main_v22 = W2 m ρ c (Proc.devRef .tc main_v22) := by
  show StableHlo.after hostOps1 (W2 m ρ c) (Proc.devRef .tc main_v22) = _; after_results <;> rfl
theorem V3_v8 (c : Dev nD) : V3 m ρ c main_v8 = W2 m ρ c (Proc.devRef .tc main_v8) := by
  show StableHlo.after hostOps1 (W2 m ρ c) (Proc.devRef .tc main_v8) = _; after_results <;> rfl
theorem V3_arg7 (c : Dev nD) : V3 m ρ c main_arg7 = W2 m ρ c (Proc.devRef .tc main_arg7) := by
  show StableHlo.after hostOps1 (W2 m ρ c) (Proc.devRef .tc main_arg7) = _; after_results <;> rfl
theorem V3_v23 (c : Dev nD) : V3 m ρ c main_v23 = wx1K (W2 m ρ c (Proc.devRef .tc main_arg6)) := by
  show StableHlo.after hostOps1 (W2 m ρ c) (Proc.devRef .tc main_v23) = _; after_results <;> rfl
theorem V3_v24 (c : Dev nD) : V3 m ρ c main_v24 = wa1K (W2 m ρ c (Proc.devRef .tc main_arg6)) := by
  show StableHlo.after hostOps1 (W2 m ρ c) (Proc.devRef .tc main_v24) = _; after_results <;> rfl
set_option maxHeartbeats 2000000 in
theorem V3_v35 (c : Dev nD) : V3 m ρ c main_v35
    = seg1V (W2 m ρ c (Proc.devRef .tc main_v22)) (W2 m ρ c (Proc.devRef .tc main_v1)) (W2 m ρ c (Proc.devRef .tc main_v3))
        (W2 m ρ c (Proc.devRef .tc main_arg3)) := by
  show StableHlo.after hostOps1 (W2 m ρ c) (Proc.devRef .tc main_v35) = _; after_results <;> rfl

/-! ## At the end -/

/-- The program's result buffer holds the second layer of: the first layer of the arguments, its edge sums, the edge
    counts, the two halves of the second weights and the second bias. -/
theorem out_eq (c : Dev nD) : W4 m ρ c (Proc.devRef .tc main_v36)
    = layer1 (layer0 (m ((c : Thread nD τ).loc main_arg0)) (seg0V (m ((c : Thread nD τ).loc main_arg0)) (srcK (m ((c : Thread nD τ).loc main_arg1))) (dstK (m ((c : Thread nD τ).loc main_arg1))) (m ((c : Thread nD τ).loc main_arg2)))
        (cntColV (dstK (m ((c : Thread nD τ).loc main_arg1)))) (wx0K (m ((c : Thread nD τ).loc main_arg4))) (wa0K (m ((c : Thread nD τ).loc main_arg4))) (m ((c : Thread nD τ).loc main_arg5)))
        (seg1V (layer0 (m ((c : Thread nD τ).loc main_arg0)) (seg0V (m ((c : Thread nD τ).loc main_arg0)) (srcK (m ((c : Thread nD τ).loc main_arg1))) (dstK (m ((c : Thread nD τ).loc main_arg1))) (m ((c : Thread nD τ).loc main_arg2)))
        (cntColV (dstK (m ((c : Thread nD τ).loc main_arg1)))) (wx0K (m ((c : Thread nD τ).loc main_arg4))) (wa0K (m ((c : Thread nD τ).loc main_arg4))) (m ((c : Thread nD τ).loc main_arg5)))
          (srcK (m ((c : Thread nD τ).loc main_arg1))) (dstK (m ((c : Thread nD τ).loc main_arg1))) (m ((c : Thread nD τ).loc main_arg3)))
        (cntColV (dstK (m ((c : Thread nD τ).loc main_arg1)))) (wx1K (m ((c : Thread nD τ).loc main_arg6))) (wa1K (m ((c : Thread nD τ).loc main_arg6))) (m ((c : Thread nD τ).loc main_arg7)) := by
  refine (W4_arr m ρ c 6).trans ?_
  rw [final1 (V3 m ρ) c]
  show layer1 (V3 m ρ c main_v22) (V3 m ρ c main_v35) (V3 m ρ c main_v8) (V3 m ρ c main_v23) (V3 m ρ c main_v24)
    (V3 m ρ c main_arg7) = _
  rw [V3_v22, V3_v35, V3_v8, V3_v23, V3_v24, V3_arg7, W2_v22, W2_v1, W2_v3, W2_arg3, W2_v8, W2_arg6, W2_arg7]

end Cert.KernelIdeal.Between

end
-- ==== Proof.RefEntry.lean ====
/-
  The reference program's two layers, each read at one entry of its result.

  A layer of the reference joins a node's own row with the row of edge means along the columns, multiplies the joined
  row with the whole weight matrix and adds the bias; the first layer then takes the maximum with 0. At entry (r, q)
  the product is a sum over the columns of the joined row. Split into its two halves, the first half reads the node's
  own row against the upper half of the weights, the second reads the edge sums divided by max(count, 1) against the
  lower half: the number `Cert.GraphLayer.entry` names. The edge sums and the edge counts are left as the reference
  computes them; nothing here looks inside them.
-/
import proofs.«170523_j1915555414503_2_alg».proof.Proof.Gen.ReferenceIdeal.Read
import proofs.«170523_j1915555414503_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefEntry

open Idealize.ShloMosaic Idealize.ShloMosaic.ValueIdx Cert.ReferenceIdeal Cert.ReferenceIdeal.Read Cert.GraphLayer

/-! ## Sums over the joined row, split at the literal sizes -/

/-- A sum over 256 columns is the sum over the first 128 plus the sum over the last 128. -/
theorem sum_256 (f : Fin 256 → EReal) :
    ∑ k : Fin 256, f k
      = (∑ k : Fin 128, f (low (by decide : 128 ≤ 256) k)) + ∑ k : Fin 128, f (high (by decide : 128 + 128 ≤ 256) k) :=
  sum_halves (C := 128) f

/-- A sum over 128 columns is the sum over the first 64 plus the sum over the last 64. -/
theorem sum_128 (f : Fin 128 → EReal) :
    ∑ k : Fin 128, f k
      = (∑ k : Fin 64, f (low (by decide : 64 ≤ 128) k)) + ∑ k : Fin 64, f (high (by decide : 64 + 64 ≤ 128) k) :=
  sum_halves (C := 64) f

/-! ## The first layer -/

section Layer0
variable (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x4 : (⟨S256x64, .f32⟩ : BufTy).Contents (Elt Ideal)) (x5 : (⟨S64, .f32⟩ : BufTy).Contents (Elt Ideal))

/-- Column k of the product's left operand at entry (r, q) is column k of row r. -/
theorem lidx0 (r : Fin 100000) (q : Fin 64) (k : Fin 256) : lidx_main_v25 (ix2 r q) k = ix2 r k :=
  funext fun a => Fin.ext (by match a with | ⟨0, _⟩ => rfl | ⟨1, _⟩ => rfl)

/-- Row k of the product's right operand at entry (r, q) is row k of column q. -/
theorem ridx0 (r : Fin 100000) (q : Fin 64) (k : Fin 256) : ridx_main_v25 (ix2 r q) k = ix2 k q :=
  funext fun a => Fin.ext (by match a with | ⟨0, _⟩ => rfl | ⟨1, _⟩ => rfl)

/-- The bias, broadcast down the rows, is read at the column. -/
theorem bidx0 (r : Fin 100000) (q : Fin 64) : idx_main_v26 (idx_main_v27 (ix2 r q)) = ix1 q :=
  funext fun a => Fin.ext (by match a with | ⟨0, _⟩ => rfl)

/-- The clamped count, broadcast along the columns, is read at the row. -/
theorem cidx0 (r : Fin 100000) (k : Fin 128) : idx_main_v21 (idx_main_v22 (ix2 r k)) = ix1 r :=
  funext fun a => Fin.ext (by match a with | ⟨0, _⟩ => rfl)

/-- The row of edge means: the edge sums divided by max(count, 1). -/
theorem mean0 (r : Fin 100000) (k : Fin 128) :
    val_main_v23 (F := Ideal) x0 x1 x2 (ix2 r k)
      = Ideal.div (val_main_v14 (F := Ideal) x0 x1 x2 (ix2 r k)) (max (val_main_v18 (F := Ideal) x1 (ix1 r)) one) := by
  rw [val_main_v23_apply, val_main_v22_apply, val_main_v21_apply, val_main_v20_apply, val_main_v19_apply,
    val_main_cst_3_apply, cidx0]
  rfl

/-- The first 128 columns of the joined row are the node's own row. -/
theorem join0_low (r : Fin 100000) (k : Fin 128) :
    val_main_v24 (F := Ideal) x0 x1 x2 (ix2 r (low (by decide : 128 ≤ 256) k)) = x0 (ix2 r k) := by
  unfold val_main_v24
  exact concatenate_pair_apply_left (t := S100000x256) (s₁ := S100000x128) (s₂ := S100000x128) (1 : Fin 2)
    x0 (val_main_v23 (F := Ideal) x0 x1 x2) _ (ix2 r (low (by decide : 128 ≤ 256) k)) rfl (ix2 r k) (by
      intro b
      match b with
      | ⟨0, _⟩ => rfl
      | ⟨1, _⟩ => rfl)

/-- The last 128 columns of the joined row are the row of edge means. -/
theorem join0_high (r : Fin 100000) (k : Fin 128) :
    val_main_v24 (F := Ideal) x0 x1 x2 (ix2 r (high (by decide : 128 + 128 ≤ 256) k))
      = val_main_v23 (F := Ideal) x0 x1 x2 (ix2 r k) := by
  unfold val_main_v24
  exact concatenate_pair_apply_right (t := S100000x256) (s₁ := S100000x128) (s₂ := S100000x128) (1 : Fin 2)
    x0 (val_main_v23 (F := Ideal) x0 x1 x2) _ (ix2 r (high (by decide : 128 + 128 ≤ 256) k)) rfl rfl (ix2 r k) (by
      intro b hb
      match b with
      | ⟨0, _⟩ => rfl
      | ⟨1, _⟩ => exact absurd rfl hb) (by
      show k.val + 128 = 128 + k.val; omega)

end Layer0

/-- The first layer at entry (r, q): the layer's number, then the maximum with 0. -/
theorem layer0_apply (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x4 : (⟨S256x64, .f32⟩ : BufTy).Contents (Elt Ideal)) (x5 : (⟨S64, .f32⟩ : BufTy).Contents (Elt Ideal)) (r : Fin 100000) (q : Fin 64) :
    val_main_v29 (F := Ideal) x0 x1 x2 x4 x5 (ix2 r q)
      = max (entry (fun k : Fin 128 => x0 (ix2 r k)) (fun k : Fin 128 => val_main_v14 (F := Ideal) x0 x1 x2 (ix2 r k)) (val_main_v18 (F := Ideal) x1 (ix1 r))
               (fun k : Fin 128 => x4 (ix2 (low (by decide : 128 ≤ 256) k) q)) (fun k : Fin 128 => x4 (ix2 (high (by decide : 128 + 128 ≤ 256) k) q)) (x5 (ix1 q))) zero := by
  have hA : ∀ k : Fin 128,
      val_main_v24 (F := Ideal) x0 x1 x2 (lidx_main_v25 (ix2 r q) (low (by decide : 128 ≤ 256) k))
          * x4 (ridx_main_v25 (ix2 r q) (low (by decide : 128 ≤ 256) k))
        = x0 (ix2 r k) * x4 (ix2 (low (by decide : 128 ≤ 256) k) q) := fun k => by
    rw [lidx0, ridx0, join0_low]
  have hB : ∀ k : Fin 128,
      val_main_v24 (F := Ideal) x0 x1 x2 (lidx_main_v25 (ix2 r q) (high (by decide : 128 + 128 ≤ 256) k))
          * x4 (ridx_main_v25 (ix2 r q) (high (by decide : 128 + 128 ≤ 256) k))
        = Ideal.div (val_main_v14 (F := Ideal) x0 x1 x2 (ix2 r k)) (max (val_main_v18 (F := Ideal) x1 (ix1 r)) one)
            * x4 (ix2 (high (by decide : 128 + 128 ≤ 256) k) q) := fun k => by
    rw [lidx0, ridx0, join0_high, mean0]
  rw [val_main_v29_apply, val_main_v28_apply, val_main_v25_apply, val_main_v27_apply, val_main_v26_apply,
    val_main_call0_v0_apply, val_main_call0_cst_apply, bidx0, sum_256,
    Finset.sum_congr rfl (fun k _ => hA k), Finset.sum_congr rfl (fun k _ => hB k)]
  rfl

/-! ## The second layer -/

section Layer1
variable (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x3 : (⟨S1600000x64, .f32⟩ : BufTy).Contents (Elt Ideal)) (x4 : (⟨S256x64, .f32⟩ : BufTy).Contents (Elt Ideal)) (x5 : (⟨S64, .f32⟩ : BufTy).Contents (Elt Ideal))

/-- Column k of the product's left operand at entry (r, q) is column k of row r. -/
theorem lidx1 (r : Fin 100000) (q : Fin 2) (k : Fin 128) : lidx_main_v55 (ix2 r q) k = ix2 r k :=
  funext fun a => Fin.ext (by match a with | ⟨0, _⟩ => rfl | ⟨1, _⟩ => rfl)

/-- Row k of the product's right operand at entry (r, q) is row k of column q. -/
theorem ridx1 (r : Fin 100000) (q : Fin 2) (k : Fin 128) : ridx_main_v55 (ix2 r q) k = ix2 k q :=
  funext fun a => Fin.ext (by match a with | ⟨0, _⟩ => rfl | ⟨1, _⟩ => rfl)

/-- The bias, broadcast down the rows, is read at the column. -/
theorem bidx1 (r : Fin 100000) (q : Fin 2) : idx_main_v56 (idx_main_v57 (ix2 r q)) = ix1 q :=
  funext fun a => Fin.ext (by match a with | ⟨0, _⟩ => rfl)

/-- The clamped count, broadcast along the columns, is read at the row. -/
theorem cidx1 (r : Fin 100000) (k : Fin 64) : idx_main_v51 (idx_main_v52 (ix2 r k)) = ix1 r :=
  funext fun a => Fin.ext (by match a with | ⟨0, _⟩ => rfl)

/-- The row of edge means: the edge sums divided by max(count, 1). -/
theorem mean1 (r : Fin 100000) (k : Fin 64) :
    val_main_v53 (F := Ideal) x0 x1 x2 x3 x4 x5 (ix2 r k)
      = Ideal.div (val_main_v44 (F := Ideal) x0 x1 x2 x3 x4 x5 (ix2 r k)) (max (val_main_v48 (F := Ideal) x1 (ix1 r)) one) := by
  rw [val_main_v53_apply, val_main_v52_apply, val_main_v51_apply, val_main_v50_apply, val_main_v49_apply,
    val_main_cst_9_apply, cidx1]
  rfl

/-- The first 64 columns of the joined row are the first layer's row. -/
theorem join1_low (r : Fin 100000) (k : Fin 64) :
    val_main_v54 (F := Ideal) x0 x1 x2 x3 x4 x5 (ix2 r (low (by decide : 64 ≤ 128) k))
      = val_main_v29 (F := Ideal) x0 x1 x2 x4 x5 (ix2 r k) := by
  unfold val_main_v54
  exact concatenate_pair_apply_left (t := S100000x128) (s₁ := S100000x64) (s₂ := S100000x64) (1 : Fin 2)
    (val_main_v29 (F := Ideal) x0 x1 x2 x4 x5) (val_main_v53 (F := Ideal) x0 x1 x2 x3 x4 x5) _
    (ix2 r (low (by decide : 64 ≤ 128) k)) rfl (ix2 r k) (by
      intro b
      match b with
      | ⟨0, _⟩ => rfl
      | ⟨1, _⟩ => rfl)

/-- The last 64 columns of the joined row are the row of edge means. -/
theorem join1_high (r : Fin 100000) (k : Fin 64) :
    val_main_v54 (F := Ideal) x0 x1 x2 x3 x4 x5 (ix2 r (high (by decide : 64 + 64 ≤ 128) k))
      = val_main_v53 (F := Ideal) x0 x1 x2 x3 x4 x5 (ix2 r k) := by
  unfold val_main_v54
  exact concatenate_pair_apply_right (t := S100000x128) (s₁ := S100000x64) (s₂ := S100000x64) (1 : Fin 2)
    (val_main_v29 (F := Ideal) x0 x1 x2 x4 x5) (val_main_v53 (F := Ideal) x0 x1 x2 x3 x4 x5) _
    (ix2 r (high (by decide : 64 + 64 ≤ 128) k)) rfl rfl (ix2 r k) (by
      intro b hb
      match b with
      | ⟨0, _⟩ => rfl
      | ⟨1, _⟩ => exact absurd rfl hb) (by
      show k.val + 64 = 64 + k.val; omega)

end Layer1

/-- The second layer at entry (r, q): the layer's number over the first layer's row. -/
theorem layer1_apply (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x3 : (⟨S1600000x64, .f32⟩ : BufTy).Contents (Elt Ideal)) (x4 : (⟨S256x64, .f32⟩ : BufTy).Contents (Elt Ideal)) (x5 : (⟨S64, .f32⟩ : BufTy).Contents (Elt Ideal)) (x6 : (⟨S128x2, .f32⟩ : BufTy).Contents (Elt Ideal)) (x7 : (⟨S2, .f32⟩ : BufTy).Contents (Elt Ideal)) (r : Fin 100000) (q : Fin 2) :
    val_main_v58 (F := Ideal) x0 x1 x2 x3 x4 x5 x6 x7 (ix2 r q)
      = entry (fun k : Fin 64 => val_main_v29 (F := Ideal) x0 x1 x2 x4 x5 (ix2 r k)) (fun k : Fin 64 => val_main_v44 (F := Ideal) x0 x1 x2 x3 x4 x5 (ix2 r k)) (val_main_v48 (F := Ideal) x1 (ix1 r))
          (fun k : Fin 64 => x6 (ix2 (low (by decide : 64 ≤ 128) k) q)) (fun k : Fin 64 => x6 (ix2 (high (by decide : 64 + 64 ≤ 128) k) q)) (x7 (ix1 q)) := by
  have hA : ∀ k : Fin 64,
      val_main_v54 (F := Ideal) x0 x1 x2 x3 x4 x5 (lidx_main_v55 (ix2 r q) (low (by decide : 64 ≤ 128) k))
          * x6 (ridx_main_v55 (ix2 r q) (low (by decide : 64 ≤ 128) k))
        = val_main_v29 (F := Ideal) x0 x1 x2 x4 x5 (ix2 r k) * x6 (ix2 (low (by decide : 64 ≤ 128) k) q) := fun k => by
    rw [lidx1, ridx1, join1_low]
  have hB : ∀ k : Fin 64,
      val_main_v54 (F := Ideal) x0 x1 x2 x3 x4 x5 (lidx_main_v55 (ix2 r q) (high (by decide : 64 + 64 ≤ 128) k))
          * x6 (ridx_main_v55 (ix2 r q) (high (by decide : 64 + 64 ≤ 128) k))
        = Ideal.div (val_main_v44 (F := Ideal) x0 x1 x2 x3 x4 x5 (ix2 r k)) (max (val_main_v48 (F := Ideal) x1 (ix1 r)) one)
            * x6 (ix2 (high (by decide : 64 + 64 ≤ 128) k) q) := fun k => by
    rw [lidx1, ridx1, join1_high, mean1]
  rw [val_main_v58_apply, val_main_v55_apply, val_main_v57_apply, val_main_v56_apply, bidx1, sum_128,
    Finset.sum_congr rfl (fun k _ => hA k), Finset.sum_congr rfl (fun k _ => hB k)]
  rfl

end Cert.RefEntry

end
-- ==== Proof.Bridge.lean ====
/-
  The kernel's result and the reference's result are one function of the eight arguments.

  Both programs build the same chains on the host: the edge counts, and for each layer the edge sums of that layer's
  input. The first layer's results agree entry by entry (both are the layer's number cut off below at 0; the kernel
  reads the count from a column and the weights from two halves, the reference from a vector and from the whole
  matrix). So the second layer's edge sums, computed by the same chain from equal inputs, agree, and then the second
  layer's results agree entry by entry.
-/
import proofs.«170523_j1915555414503_2_alg».proof.Proof.HostSide
import proofs.«170523_j1915555414503_2_alg».proof.Proof.Regions
import proofs.«170523_j1915555414503_2_alg».proof.Proof.RefEntry
import proofs.«170523_j1915555414503_2_alg».proof.Proof.LibColumn
import Idealize.ShloMosaic.Lib.Pipeline.Value
import Idealize.ShloMosaic.Lib.ValueIdx

set_option maxRecDepth 16384

noncomputable section

namespace Cert.Bridge

open Idealize.ShloMosaic Idealize.ShloMosaic.ValueIdx
open Cert.KernelIdeal.HostSide Cert.KernelIdeal.Regions Cert.ReferenceIdeal.Read Cert.GraphLayer

variable (x0 : (⟨Cert.KernelIdeal.S100000x128, .f32⟩ : BufTy).Contents (Elt Ideal)) (x1 : (⟨Cert.KernelIdeal.S2x1600000, .i32⟩ : BufTy).Contents (Elt Ideal)) (x2 : (⟨Cert.KernelIdeal.S1600000x128, .f32⟩ : BufTy).Contents (Elt Ideal))
  (x3 : (⟨Cert.KernelIdeal.S1600000x64, .f32⟩ : BufTy).Contents (Elt Ideal)) (x4 : (⟨Cert.KernelIdeal.S256x64, .f32⟩ : BufTy).Contents (Elt Ideal)) (x5 : (⟨Cert.KernelIdeal.S64, .f32⟩ : BufTy).Contents (Elt Ideal))
  (x6 : (⟨Cert.KernelIdeal.S128x2, .f32⟩ : BufTy).Contents (Elt Ideal)) (x7 : (⟨Cert.KernelIdeal.S2, .f32⟩ : BufTy).Contents (Elt Ideal))

/-! ## The shared chains -/

/-- The edge counts are the reference's (in both of its layers). -/
theorem cnt_eq0 : cntV (dstK x1) = val_main_v18 (F := Ideal) x1 := rfl
theorem cnt_eq1 : cntV (dstK x1) = val_main_v48 (F := Ideal) x1 := rfl
/-- The first layer's edge sums are the reference's. -/
theorem seg0_eq : seg0V x0 (srcK x1) (dstK x1) x2 = val_main_v14 (F := Ideal) x0 x1 x2 := rfl
/-- The second layer's edge sums, of the reference's first layer, are the reference's. -/
theorem seg1_eq : seg1V (val_main_v29 (F := Ideal) x0 x1 x2 x4 x5) (srcK x1) (dstK x1) x3
    = val_main_v44 (F := Ideal) x0 x1 x2 x3 x4 x5 := rfl

/-! ## The kernel's operands read where the reference reads them -/

/-- The count column at (r, 0) is the count vector at r. -/
theorem cntCol_apply (dst : (⟨Cert.KernelIdeal.S1600000, .i32⟩ : BufTy).Contents (Elt Ideal)) (r : Fin 100000) :
    cntColV dst (ix2 r (0 : Fin 1)) = cntV dst (ix1 r) :=
  Cert.Column.shapeCast_a_a1_apply (cntV dst) Cert.KernelIdeal.Gen.shapeCasts_S100000_S100000x1 r 0

/-- The upper half of the first weights at (k, q) is the whole matrix at (k, q); the lower half reads row 128 + k. -/
theorem wx0_apply (k : Fin 128) (q : Fin 64) : wx0K x4 (ix2 k q) = x4 (ix2 (low (by decide : 128 ≤ 256) k) q) := by
  unfold wx0K
  exact extractStridedSlice_apply ![0, 0] x4 Cert.KernelIdeal.Gen.slices_S256x64_S128x64_0_0 (ix2 k q) _ (fun a => match a with
    | ⟨0, _⟩ => by show k.val = 0 + k.val; omega
    | ⟨1, _⟩ => by show q.val = 0 + q.val; omega)
theorem wa0_apply (k : Fin 128) (q : Fin 64) : wa0K x4 (ix2 k q) = x4 (ix2 (high (by decide : 128 + 128 ≤ 256) k) q) := by
  unfold wa0K
  exact extractStridedSlice_apply ![128, 0] x4 Cert.KernelIdeal.Gen.slices_S256x64_S128x64_128_0 (ix2 k q) _ (fun a => match a with
    | ⟨0, _⟩ => by show 128 + k.val = 128 + k.val; omega
    | ⟨1, _⟩ => by show q.val = 0 + q.val; omega)
theorem wx1_apply (k : Fin 64) (q : Fin 2) : wx1K x6 (ix2 k q) = x6 (ix2 (low (by decide : 64 ≤ 128) k) q) := by
  unfold wx1K
  exact extractStridedSlice_apply ![0, 0] x6 Cert.KernelIdeal.Gen.slices_S128x2_S64x2_0_0 (ix2 k q) _ (fun a => match a with
    | ⟨0, _⟩ => by show k.val = 0 + k.val; omega
    | ⟨1, _⟩ => by show q.val = 0 + q.val; omega)
theorem wa1_apply (k : Fin 64) (q : Fin 2) : wa1K x6 (ix2 k q) = x6 (ix2 (high (by decide : 64 + 64 ≤ 128) k) q) := by
  unfold wa1K
  exact extractStridedSlice_apply ![64, 0] x6 Cert.KernelIdeal.Gen.slices_S128x2_S64x2_64_0 (ix2 k q) _ (fun a => match a with
    | ⟨0, _⟩ => by show 64 + k.val = 64 + k.val; omega
    | ⟨1, _⟩ => by show q.val = 0 + q.val; omega)

/-! ## The two results -/

/-- The first kernel's result array, from the arguments. -/
def hidden : (⟨Cert.KernelIdeal.S100000x64, .f32⟩ : BufTy).Contents (Elt Ideal) :=
  layer0 x0 (seg0V x0 (srcK x1) (dstK x1) x2) (cntColV (dstK x1)) (wx0K x4) (wa0K x4) x5

/-- The second kernel's result array — the program's result —, from the arguments. -/
def result : (⟨Cert.KernelIdeal.S100000x2, .f32⟩ : BufTy).Contents (Elt Ideal) :=
  layer1 (hidden x0 x1 x2 x4 x5) (seg1V (hidden x0 x1 x2 x4 x5) (srcK x1) (dstK x1) x3) (cntColV (dstK x1))
    (wx1K x6) (wa1K x6) x7

/-- The first kernel's result is the reference's first layer. -/
theorem hidden_eq : hidden x0 x1 x2 x4 x5 = val_main_v29 (F := Ideal) x0 x1 x2 x4 x5 := by
  funext i
  obtain ⟨r, q, rfl⟩ : ∃ (r : Fin 100000) (q : Fin 64), i = ix2 r q := ⟨i 0, i 1, eq_ix2 i⟩
  unfold hidden
  rw [layer0_apply, Cert.RefEntry.layer0_apply, seg0_eq, cntCol_apply, cnt_eq0]
  simp only [wx0_apply, wa0_apply]

/-- The program's result is the reference's result. -/
theorem result_eq : result x0 x1 x2 x3 x4 x5 x6 x7 = val_main_v58 (F := Ideal) x0 x1 x2 x3 x4 x5 x6 x7 := by
  funext i
  obtain ⟨r, q, rfl⟩ : ∃ (r : Fin 100000) (q : Fin 2), i = ix2 r q := ⟨i 0, i 1, eq_ix2 i⟩
  unfold result
  rw [hidden_eq, layer1_apply, Cert.RefEntry.layer1_apply, seg1_eq, cntCol_apply, cnt_eq1]
  simp only [wx1_apply, wa1_apply]

end Cert.Bridge

end
-- ==== Proof.lean ====
/-
  The certificate of a two-layer mean-aggregating graph convolution against its plain reference.

  The kernel program computes, on the host, the edge counts and each layer's edge sums (gather at the sources, scale
  by the edge attributes, scatter-add at the targets) and runs one kernel per layer over 20 blocks of 5000 nodes; a
  kernel divides the edge sums by max(count, 1), multiplies the node's own row with the upper half of the weights and
  the mean row with the lower half, adds the two products and the bias, and the first layer cuts off below at 0. The
  reference joins the two rows and multiplies once with the whole weight matrix. Over the extended reals a sum over the
  joined row is the sum over its first half plus the sum over its second half, so the two layers agree entry by entry;
  the shared host chains are carried as they are. Nothing in the argument needs the inputs to be finite.

  The three frames: the two kernel programs' by their launch-side certificates; the reference's is its run with the
  result dropped. The idealization rewrote nothing, so what it preserves is trivial.
-/
import proofs.«170523_j1915555414503_2_alg».proof.Defs
import proofs.«170523_j1915555414503_2_alg».proof.Proof.Gen.Kernel
import proofs.«170523_j1915555414503_2_alg».proof.Proof.Gen.Kernel.Frame
import proofs.«170523_j1915555414503_2_alg».proof.Proof.Gen.KernelIdeal
import proofs.«170523_j1915555414503_2_alg».proof.Proof.Gen.KernelIdeal.Frame
import proofs.«170523_j1915555414503_2_alg».proof.Proof.Gen.ReferenceIdeal
import proofs.«170523_j1915555414503_2_alg».proof.Proof.Gen.Pre_finite_inputs
import proofs.«170523_j1915555414503_2_alg».proof.Proof.Gen.ReferenceIdeal.Run
import proofs.«170523_j1915555414503_2_alg».proof.Proof.Gen.ReferenceIdeal.Read
import proofs.«170523_j1915555414503_2_alg».proof.Proof.RunOut
import proofs.«170523_j1915555414503_2_alg».proof.Proof.Between
import proofs.«170523_j1915555414503_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the arguments, both programs end with the same result array: the kernel program's
    result buffer holds the second layer over the first (the run with the result named, and the two kernels' arrays
    read as whole-array functions), the reference's holds its last stage, and the two are one function of the
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bridge.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Between.out_eq m ρ c), (h c).2⟩)
      (Cert.KernelIdeal.RunOut.run_out (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v58_eq, (hagree c).1, (hagree c).2.1, (hagree c).2.2.1,
      (hagree c).2.2.2.1, (hagree c).2.2.2.2.1, (hagree c).2.2.2.2.2.1, (hagree c).2.2.2.2.2.2.1,
      (hagree c).2.2.2.2.2.2.2]
    exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
